-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x20 : Shape := ⟨2, ![64, 20]⟩
abbrev S20 : Shape := ⟨1, ![20]⟩
abbrev S2x1600000 : Shape := ⟨2, ![2, 1600000]⟩
abbrev S10000 : Shape := ⟨1, ![10000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part3 {F : FTy → Type} [FloatOps F] (main_arg11 : FVec F S20 .f32) (main_v48 : IVec S_ 1) (main_v49 : FVec F S64x20 .f32) (main_v50 : FVec F S64x20 .f32) : IVec S_ 1 :=
  let main_v51 : IVec S64x20 1 := cmpf .olt main_v49 main_v50
  let main_c_19 : IVec S_ 1 := constantI S_ 1 1#1
  let main_v52 : IVec S_ 1 := (fun x v => Host.reduce IntOp.andi x v reducesTo_S64x20_S_d0_1 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x20 .f32) (main_arg11 : FVec F S20 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x20 .f32 := Host.absf main_arg10
  let main_cst_18 : FVec F S_ .f32 := constant S_ .f32 0x7F800000#32
  let main_v50 : FVec F S64x20 .f32 := broadcastInDim S64x20 ![] bcast_S_S64x20 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x20 .f32) (main_arg11 : FVec F S20 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x256 .f32) (main_arg1 : FVec F S1600000 .f32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x20 .f32) (main_arg11 : FVec F S20 .f32) (main_arg12 : IVec S2x1600000 32) (main_arg13 : IVec S10000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x20 : Shape := ⟨2, ![64, 20]⟩
abbrev S20 : Shape := ⟨1, ![20]⟩
abbrev S2x1600000 : Shape := ⟨2, ![2, 1600000]⟩
abbrev S10000 : Shape := ⟨1, ![10000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S10000x1 : Shape := ⟨2, ![10000, 1]⟩
abbrev S10000x64 : Shape := ⟨2, ![10000, 64]⟩
abbrev S1x20 : Shape := ⟨2, ![1, 20]⟩
abbrev S10000x20 : Shape := ⟨2, ![10000, 20]⟩

abbrev nBuf : Space → Nat
  | .hbm => 144
  | .vmem => 21
  | .smem => 0
  | _ => 0

abbrev hbmTy0_0 (i : Nat) : BufTy := match i % 128 with
  | 0 => ⟨S100000x256, .f32⟩
  | 1 => ⟨S1600000, .f32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x20, .f32⟩
  | 11 => ⟨S20, .f32⟩
  | 12 => ⟨S2x1600000, .i32⟩
  | 13 => ⟨S10000, .i32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S1700000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x256, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .i32⟩
  | 5 => ⟨S10000, .i32⟩
  | 6 => ⟨S10000, .i1⟩
  | 7 => ⟨S_, .i32⟩
  | 8 => ⟨S10000, .i32⟩
  | 9 => ⟨S10000, .i32⟩
  | 10 => ⟨S10000, .i32⟩
  | 11 => ⟨S10000x1, .i32⟩
  | 12 => ⟨S10000x64, .f32⟩
  | 13 => ⟨S1x64, .f32⟩
  | 14 => ⟨S1x20, .f32⟩
  | 15 => ⟨S10000x20, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S64x20, .f32⟩
  | .local _ .vmem, ⟨19, _⟩ => ⟨S1x20, .f32⟩
  | .local _ .vmem, ⟨20, _⟩ => ⟨S10000x20, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_c_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call3_cst : Ref sig .tc := ⟨.hbm, 106, rfl⟩
abbrev main_call3_v0 : Ref sig .tc := ⟨.hbm, 107, rfl⟩
abbrev main_v70 : Ref sig .tc := ⟨.hbm, 108, rfl⟩
abbrev main_v71 : Ref sig .tc := ⟨.hbm, 109, rfl⟩
abbrev main_c_14 : Ref sig .tc := ⟨.hbm, 110, rfl⟩
abbrev main_v72 : Ref sig .tc := ⟨.hbm, 111, rfl⟩
abbrev main_v73 : Ref sig .tc := ⟨.hbm, 112, rfl⟩
abbrev main_c_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_c_17 : Ref sig .tc := ⟨.hbm, 132, rfl⟩
abbrev main_v89 : Ref sig .tc := ⟨.hbm, 133, rfl⟩
abbrev main_v90 : Ref sig .tc := ⟨.hbm, 134, rfl⟩
abbrev main_c_18 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x20 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x20 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S10000x20 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S10000 : S_.BroadcastsInDim S10000 (![] : Fin 0 → Fin S10000.rank)
  bcast_S10000_S10000x1_0 : S10000.BroadcastsInDim S10000x1 (![0] : Fin 1 → Fin S10000x1.rank)
  shapeCasts_S64_S1x64 : S64.ShapeCasts S1x64
  shapeCasts_S20_S1x20 : S20.ShapeCasts S1x20
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x20_S64x20_0_0 : ∀ a, (![0, 0] : Fin 2 → Nat) a + S64x20.size a ≤ S64x20.size a
  h_S64x20 : 0 < S64x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  inb_S10000x20_S10000x20_0_0 : ∀ a, (![0, 0] : Fin 2 → Nat) a + S10000x20.size a ≤ S10000x20.size a
  h_S10000x20 : 0 < S10000x20.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  gather_S100000x64_S10000x1_S10000x64_1_0_n_n_0_1_164_wf : GatherDims.WF S100000x64 S10000x1 S10000x64 [1] [0] [] [0] [] 1 ![1, 64]
  dot_S10000x64_S64x64_S10000x64_1_0_0_1_n_n_wf : DotDims.WF S10000x64 S64x64 S10000x64 [1] [0] [0] [1] [] []
  dot_S10000x64_S64x20_S10000x20_1_0_0_1_n_n_wf : DotDims.WF S10000x64 S64x20 S10000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S10000x64.size a
  hwx3_0 : ∀ i : grid3.Coords, EltTy.bits .f32 = 32 ∨ (Rect.block (s := S10000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x20.size a ≤ S64x20.size a
  hwx3_3 : ∀ i : grid3.Coords, EltTy.bits .f32 = 32 ∨ (Rect.block (s := S64x20) S64x20.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x20.size a ≤ S1x20.size a
  hwx3_4 : ∀ i : grid3.Coords, EltTy.bits .f32 = 32 ∨ (Rect.block (s := S1x20) S1x20.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10000x20.size a ≤ S10000x20.size a
  hwx3_5 : ∀ i : grid3.Coords, EltTy.bits .f32 = 32 ∨ (Rect.block (s := S10000x20) S10000x20.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S10000x1_S10000x64_1_0_n_n_0_1_164 : GatherDims S100000x64 S10000x1 S10000x64 where
  offsetDims := [1]
  collapsedSliceDims := [0]
  operandBatchingDims := []
  startIndicesBatchingDims := []
  startIndexMap := [0]
  indexVectorDim := 1
  sliceSizes := ![1, 64]
  wf := gather_S100000x64_S10000x1_S10000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x20_S10000x20_1_0_0_1_n_n : DotDims S10000x64 S64x20 S10000x20 where
  lhsContracting := [1]
  rhsContracting := [0]
  lhsNonContracting := [0]
  rhsNonContracting := [1]
  lhsBatch := []
  rhsBatch := []
  wf := dot_S10000x64_S64x20_S10000x20_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v95) S10000x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x20.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v97) S1x20.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v98) S10000x20.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S64x20 : Shape := ⟨2, ![64, 20]⟩
abbrev S20 : Shape := ⟨1, ![20]⟩
abbrev S2x1600000 : Shape := ⟨2, ![2, 1600000]⟩
abbrev S10000 : Shape := ⟨1, ![10000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S10000x1 : Shape := ⟨2, ![10000, 1]⟩
abbrev S10000x64 : Shape := ⟨2, ![10000, 64]⟩
abbrev S10000x20 : Shape := ⟨2, ![10000, 20]⟩
abbrev S1x20 : Shape := ⟨2, ![1, 20]⟩

abbrev nBuf : Space → Nat
  | .hbm => 152
  | .vmem => 0
  | .smem => 0
  | _ => 0

abbrev hbmTy0_0 (i : Nat) : BufTy := match i % 128 with
  | 0 => ⟨S100000x256, .f32⟩
  | 1 => ⟨S1600000, .f32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x20, .f32⟩
  | 11 => ⟨S20, .f32⟩
  | 12 => ⟨S2x1600000, .i32⟩
  | 13 => ⟨S10000, .i32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S1700000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x256, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .i32⟩
  | 5 => ⟨S10000, .i32⟩
  | 6 => ⟨S10000, .i1⟩
  | 7 => ⟨S_, .i32⟩
  | 8 => ⟨S10000, .i32⟩
  | 9 => ⟨S10000, .i32⟩
  | 10 => ⟨S10000, .i32⟩
  | 11 => ⟨S10000x1, .i32⟩
  | 12 => ⟨S10000x64, .f32⟩
  | 13 => ⟨S10000x64, .f32⟩
  | 14 => ⟨S1x64, .f32⟩
  | 15 => ⟨S10000x64, .f32⟩
  | 16 => ⟨S10000x64, .f32⟩
  | 17 => ⟨S_, .f32⟩
  | 18 => ⟨S10000x64, .f32⟩
  | 19 => ⟨S10000x64, .f32⟩
  | 20 => ⟨S10000x20, .f32⟩
  | 21 => ⟨S1x20, .f32⟩
  | 22 => ⟨S10000x20, .f32⟩
  | 23 => ⟨S10000x20, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_c_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call3_cst : Ref sig .tc := ⟨.hbm, 106, rfl⟩
abbrev main_call3_v0 : Ref sig .tc := ⟨.hbm, 107, rfl⟩
abbrev main_v70 : Ref sig .tc := ⟨.hbm, 108, rfl⟩
abbrev main_v71 : Ref sig .tc := ⟨.hbm, 109, rfl⟩
abbrev main_c_14 : Ref sig .tc := ⟨.hbm, 110, rfl⟩
abbrev main_v72 : Ref sig .tc := ⟨.hbm, 111, rfl⟩
abbrev main_v73 : Ref sig .tc := ⟨.hbm, 112, rfl⟩
abbrev main_c_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_c_17 : Ref sig .tc := ⟨.hbm, 132, rfl⟩
abbrev main_v89 : Ref sig .tc := ⟨.hbm, 133, rfl⟩
abbrev main_v90 : Ref sig .tc := ⟨.hbm, 134, rfl⟩
abbrev main_c_18 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_call5_cst : Ref sig .tc := ⟨.hbm, 145, rfl⟩
abbrev main_call5_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S10000 : S_.BroadcastsInDim S10000 (![] : Fin 0 → Fin S10000.rank)
  bcast_S10000_S10000x1_0 : S10000.BroadcastsInDim S10000x1 (![0] : Fin 1 → Fin S10000x1.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S20_S1x20_1 : S20.BroadcastsInDim S1x20 (![1] : Fin 1 → Fin S1x20.rank)
  bcast_S1x20_S10000x20_0_1 : S1x20.BroadcastsInDim S10000x20 (![0, 1] : Fin 2 → Fin S10000x20.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S10000x1_S10000x64_1_0_n_n_0_1_164_wf : GatherDims.WF S100000x64 S10000x1 S10000x64 [1] [0] [] [0] [] 1 ![1, 64]
  dot_S10000x64_S64x64_S10000x64_1_0_0_1_n_n_wf : DotDims.WF S10000x64 S64x64 S10000x64 [1] [0] [0] [1] [] []
  dot_S10000x64_S64x20_S10000x20_1_0_0_1_n_n_wf : DotDims.WF S10000x64 S64x20 S10000x20 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S10000x1_S10000x64_1_0_n_n_0_1_164 : GatherDims S100000x64 S10000x1 S10000x64 where
  offsetDims := [1]
  collapsedSliceDims := [0]
  operandBatchingDims := []
  startIndicesBatchingDims := []
  startIndexMap := [0]
  indexVectorDim := 1
  sliceSizes := ![1, 64]
  wf := gather_S100000x64_S10000x1_S10000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x20_S10000x20_1_0_0_1_n_n : DotDims S10000x64 S64x20 S10000x20 where
  lhsContracting := [1]
  rhsContracting := [0]
  lhsNonContracting := [0]
  rhsNonContracting := [1]
  lhsBatch := []
  rhsBatch := []
  wf := dot_S10000x64_S64x20_S10000x20_1_0_0_1_n_n_wf

class Facts : Prop extends Facts₀ where

variable [Facts]
-- ==== Proof.KernelRun.lean ====
/-
  The idealized kernel program's run with its result array named.

  The program is sixteen segments: stretches of host operations and four kernel launches. The buffer contents at
  each segment boundary are a fold from the launch memory (a host stretch applies its operations in order; a launch
  leaves its arrays at what its write-backs leave and every other buffer as entered). Every weakly fair execution
  terminates with every unscoped buffer at the last boundary's contents; read at the result buffer and at the
  fourteen argument buffers this is the run below.
-/
import proofs.«145869_j44152263803038_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v98) = W16 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v98 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.RunValue

end
-- ==== Proof.HostStages.lean ====
/-
  The host stretches of the idealized kernel program, read against the reference's stages.

  Between its four kernel launches the program runs the same host operations as the reference, on buffers of the same
  names: the normalised edge weights and the two index columns before the first launch; after each of the three
  feature products a gather of rows, the scaling by the edge weights, the scatter-add into the node table, the bias
  and the rectifier; and before the last launch the gather of the document rows. Each stretch's result is stated as
  the reference's stage of the same name, given that the buffers the stretch reads hold the reference's earlier
  stages. A buffer no operation of a stretch writes keeps its contents.
-/
import proofs.«145869_j44152263803038_1_alg».proof.Proof.Gen.KernelIdeal.Launch
import proofs.«145869_j44152263803038_1_alg».proof.Proof.Gen.ReferenceIdeal.Read

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-! ## Before the first launch: the edge weights' normalisation and the index columns -/

/-- The source column with the self-loops appended. -/
theorem rows_eq (V : Valuation τ sig (Elt F)) :
    StableHlo.after hostOps0_4 (StableHlo.after hostOps0_3 (StableHlo.after hostOps0_2 (StableHlo.after hostOps0_1 (StableHlo.after hostOps0 V)))) (Proc.devRef .tc main_v5) = Cert.ReferenceIdeal.Read.val_main_v5 (F := F) (V (Proc.devRef .tc main_arg12)) := by
  after_results_simp <;> rfl

/-- The target column with the self-loops appended. -/
theorem cols_eq (V : Valuation τ sig (Elt F)) :
    StableHlo.after hostOps0_4 (StableHlo.after hostOps0_3 (StableHlo.after hostOps0_2 (StableHlo.after hostOps0_1 (StableHlo.after hostOps0 V)))) (Proc.devRef .tc main_v6) = Cert.ReferenceIdeal.Read.val_main_v6 (F := F) (V (Proc.devRef .tc main_arg12)) := by
  after_results_simp <;> rfl

/-- The symmetric normalisation d(src)^(-1/2) · w · d(dst)^(-1/2) of every edge and self-loop. -/
theorem norm_eq (V : Valuation τ sig (Elt F)) :
    StableHlo.after hostOps0_4 (StableHlo.after hostOps0_3 (StableHlo.after hostOps0_2 (StableHlo.after hostOps0_1 (StableHlo.after hostOps0 V)))) (Proc.devRef .tc main_v34) = Cert.ReferenceIdeal.Read.val_main_v34 (F := F) (V (Proc.devRef .tc main_arg1)) (V (Proc.devRef .tc main_arg12)) := by
  after_results_simp <;> rfl

/-- The weight, bias and document-index arguments are not written before the first launch. -/
theorem before_first_keeps (V : Valuation τ sig (Elt F)) :
    ∀ r ∈ ([main_arg0, main_arg2, main_arg3, main_arg4, main_arg5, main_arg6, main_arg7, main_arg8, main_arg9, main_arg10, main_arg11, main_arg13] : List (Ref sig .tc)), StableHlo.after hostOps0_4 (StableHlo.after hostOps0_3 (StableHlo.after hostOps0_2 (StableHlo.after hostOps0_1 (StableHlo.after hostOps0 V)))) (Proc.devRef .tc r) = V (Proc.devRef .tc r) := by
  intro r hr
  simp only [List.mem_cons, List.not_mem_nil, or_false] at hr
  rcases hr with rfl | rfl | rfl | rfl | rfl | rfl | rfl | rfl | rfl | rfl | rfl | rfl <;> after_results_simp <;> rfl

/-! ## After a feature product: aggregate over the edges, add the bias, rectify -/

/-- The first layer's activations, from the first product. -/
theorem layer1_eq (V : Valuation τ sig (Elt F)) (x0 : (⟨Cert.ReferenceIdeal.S100000x256, .f32⟩ : BufTy).Contents (Elt F)) (x1 : (⟨Cert.ReferenceIdeal.S1600000, .f32⟩ : BufTy).Contents (Elt F)) (x2 : (⟨Cert.ReferenceIdeal.S256x64, .f32⟩ : BufTy).Contents (Elt F)) (x3 : (⟨Cert.ReferenceIdeal.S64, .f32⟩ : BufTy).Contents (Elt F)) (x12 : (⟨Cert.ReferenceIdeal.S2x1600000, .i32⟩ : BufTy).Contents (Elt F))
    (hy : V (Proc.devRef .tc main_v35) = Cert.ReferenceIdeal.Read.val_main_v35 (F := F) x0 x2)
    (hr : V (Proc.devRef .tc main_v5) = Cert.ReferenceIdeal.Read.val_main_v5 (F := F) x12) (hc : V (Proc.devRef .tc main_v6) = Cert.ReferenceIdeal.Read.val_main_v6 (F := F) x12)
    (hn : V (Proc.devRef .tc main_v34) = Cert.ReferenceIdeal.Read.val_main_v34 (F := F) x1 x12) (hb : V (Proc.devRef .tc main_arg3) = x3) :
    StableHlo.after hostOps1_1 (StableHlo.after hostOps1 V) (Proc.devRef .tc main_v52) = Cert.ReferenceIdeal.Read.val_main_v52 (F := F) x0 x1 x2 x3 x12 := by
  after_results_simp
  rw [hy, hr, hc, hn, hb]
  rfl

/-- The columns, the normalisation and the arguments still to be read are not written between the first and second launches. -/
theorem after_first_keeps (V : Valuation τ sig (Elt F)) :
    ∀ r ∈ ([main_v5, main_v6, main_v34, main_arg3, main_arg4, main_arg5, main_arg6, main_arg7, main_arg8, main_arg9, main_arg10, main_arg11, main_arg13] : List (Ref sig .tc)), StableHlo.after hostOps1_1 (StableHlo.after hostOps1 V) (Proc.devRef .tc r) = V (Proc.devRef .tc r) := by
  intro r hr
  simp only [List.mem_cons, List.not_mem_nil, or_false] at hr
  rcases hr with rfl | rfl | rfl | rfl | rfl | rfl | rfl | rfl | rfl | rfl | rfl | rfl | rfl <;> after_results_simp <;> rfl

/-- The second layer's activations, from the second product. -/
theorem layer2_eq (V : Valuation τ sig (Elt F)) (x0 : (⟨Cert.ReferenceIdeal.S100000x256, .f32⟩ : BufTy).Contents (Elt F)) (x1 : (⟨Cert.ReferenceIdeal.S1600000, .f32⟩ : BufTy).Contents (Elt F)) (x2 : (⟨Cert.ReferenceIdeal.S256x64, .f32⟩ : BufTy).Contents (Elt F)) (x3 : (⟨Cert.ReferenceIdeal.S64, .f32⟩ : BufTy).Contents (Elt F)) (x4 : (⟨Cert.ReferenceIdeal.S64x64, .f32⟩ : BufTy).Contents (Elt F)) (x5 : (⟨Cert.ReferenceIdeal.S64, .f32⟩ : BufTy).Contents (Elt F)) (x12 : (⟨Cert.ReferenceIdeal.S2x1600000, .i32⟩ : BufTy).Contents (Elt F))
    (hy : V (Proc.devRef .tc main_v53) = Cert.ReferenceIdeal.Read.val_main_v53 (F := F) x0 x1 x2 x3 x4 x12)
    (hr : V (Proc.devRef .tc main_v5) = Cert.ReferenceIdeal.Read.val_main_v5 (F := F) x12) (hc : V (Proc.devRef .tc main_v6) = Cert.ReferenceIdeal.Read.val_main_v6 (F := F) x12)
    (hn : V (Proc.devRef .tc main_v34) = Cert.ReferenceIdeal.Read.val_main_v34 (F := F) x1 x12) (hb : V (Proc.devRef .tc main_arg5) = x5) :
    StableHlo.after hostOps2_1 (StableHlo.after hostOps2 V) (Proc.devRef .tc main_v70) = Cert.ReferenceIdeal.Read.val_main_v70 (F := F) x0 x1 x2 x3 x4 x5 x12 := by
  after_results_simp
  rw [hy, hr, hc, hn, hb]
  rfl

/-- The columns, the normalisation and the arguments still to be read are not written between the second and third launches. -/
theorem after_second_keeps (V : Valuation τ sig (Elt F)) :
    ∀ r ∈ ([main_v5, main_v6, main_v34, main_arg5, main_arg6, main_arg7, main_arg8, main_arg9, main_arg10, main_arg11, main_arg13] : List (Ref sig .tc)), StableHlo.after hostOps2_1 (StableHlo.after hostOps2 V) (Proc.devRef .tc r) = V (Proc.devRef .tc r) := by
  intro r hr
  simp only [List.mem_cons, List.not_mem_nil, or_false] at hr
  rcases hr with rfl | rfl | rfl | rfl | rfl | rfl | rfl | rfl | rfl | rfl | rfl <;> after_results_simp <;> rfl

/-- The document rows of the third layer's activations, from the third product. -/
theorem docs_eq (V : Valuation τ sig (Elt F)) (x0 : (⟨Cert.ReferenceIdeal.S100000x256, .f32⟩ : BufTy).Contents (Elt F)) (x1 : (⟨Cert.ReferenceIdeal.S1600000, .f32⟩ : BufTy).Contents (Elt F)) (x2 : (⟨Cert.ReferenceIdeal.S256x64, .f32⟩ : BufTy).Contents (Elt F)) (x3 : (⟨Cert.ReferenceIdeal.S64, .f32⟩ : BufTy).Contents (Elt F)) (x4 : (⟨Cert.ReferenceIdeal.S64x64, .f32⟩ : BufTy).Contents (Elt F)) (x5 : (⟨Cert.ReferenceIdeal.S64, .f32⟩ : BufTy).Contents (Elt F)) (x6 : (⟨Cert.ReferenceIdeal.S64x64, .f32⟩ : BufTy).Contents (Elt F)) (x7 : (⟨Cert.ReferenceIdeal.S64, .f32⟩ : BufTy).Contents (Elt F)) (x12 : (⟨Cert.ReferenceIdeal.S2x1600000, .i32⟩ : BufTy).Contents (Elt F)) (x13 : (⟨Cert.ReferenceIdeal.S10000, .i32⟩ : BufTy).Contents (Elt F))
    (hy : V (Proc.devRef .tc main_v71) = Cert.ReferenceIdeal.Read.val_main_v71 (F := F) x0 x1 x2 x3 x4 x5 x6 x12)
    (hr : V (Proc.devRef .tc main_v5) = Cert.ReferenceIdeal.Read.val_main_v5 (F := F) x12) (hc : V (Proc.devRef .tc main_v6) = Cert.ReferenceIdeal.Read.val_main_v6 (F := F) x12)
    (hn : V (Proc.devRef .tc main_v34) = Cert.ReferenceIdeal.Read.val_main_v34 (F := F) x1 x12) (hb : V (Proc.devRef .tc main_arg7) = x7)
    (hd : V (Proc.devRef .tc main_arg13) = x13) :
    StableHlo.after hostOps3_2 (StableHlo.after hostOps3_1 (StableHlo.after hostOps3 V)) (Proc.devRef .tc main_v95) = Cert.ReferenceIdeal.Read.val_main_v95 (F := F) x0 x1 x2 x3 x4 x5 x6 x7 x12 x13 := by
  after_results_simp
  rw [hy, hr, hc, hn, hb, hd]
  rfl

/-- The hidden bias laid out as one row. -/
theorem bias_row_hidden (V : Valuation τ sig (Elt F)) :
    StableHlo.after hostOps3_2 (StableHlo.after hostOps3_1 (StableHlo.after hostOps3 V)) (Proc.devRef .tc main_v96) = shapeCast S1x64 (V (Proc.devRef .tc main_arg9)) shapeCasts_S64_S1x64 := by
  after_results_simp <;> rfl

/-- The class bias laid out as one row. -/
theorem bias_row_class (V : Valuation τ sig (Elt F)) :
    StableHlo.after hostOps3_2 (StableHlo.after hostOps3_1 (StableHlo.after hostOps3 V)) (Proc.devRef .tc main_v97) = shapeCast S1x20 (V (Proc.devRef .tc main_arg11)) shapeCasts_S20_S1x20 := by
  after_results_simp <;> rfl

/-- The head's two weight arguments are not written between the third and last launches. -/
theorem after_third_keeps (V : Valuation τ sig (Elt F)) :
    ∀ r ∈ ([main_arg8, main_arg10] : List (Ref sig .tc)), StableHlo.after hostOps3_2 (StableHlo.after hostOps3_1 (StableHlo.after hostOps3 V)) (Proc.devRef .tc r) = V (Proc.devRef .tc r) := by
  intro r hr
  simp only [List.mem_cons, List.not_mem_nil, or_false] at hr
  rcases hr with rfl | rfl <;> after_results_simp <;> rfl

end Cert.KernelIdeal.Stages

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«145869_j44152263803038_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.MatmulRegions.lean ====
/-
  The three feature products of the idealized kernel program.

  Each of the first three launches multiplies a [100000, k] array of node features by a [k, 64] weight matrix, five
  thousand rows per grid point: the body rounds both blocks to bf16 (the identity on the extended reals), multiplies
  them into a zero accumulator and stores the block. Rows of a product depend on the same rows of the left operand
  only, so block t of the result is block t of the one whole product; the twenty blocks tile the result array, which
  therefore ends holding the whole product, the host's dot_general of the two arrays the launch found.
-/
import proofs.«145869_j44152263803038_1_alg».proof.Proof.Gen.KernelIdeal.Frame
import proofs.«145869_j44152263803038_1_alg».proof.Proof.LibRowBlockProduct
import Idealize.ShloMosaic.Lib.Pipeline.Value
import Idealize.ShloMosaic.Lib.ValueIdx

set_option maxRecDepth 16384

noncomputable section

namespace Cert.KernelIdeal.Products

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0: rows of main_arg0 times main_arg2, five thousand rows per grid point -/

/-- The whole product the launch leaves in its result array. -/
abbrev product0 (X : FVec Ideal S100000x256 .f32) (W : FVec Ideal S256x64 .f32) : FVec Ideal S100000x64 .f32 :=
  Host.dotGeneral (F := Ideal) (DotDims.plain 100000 256 64) none X W

/-- The printed index maps over the grid: at point t the left block and the result block are block t of their arrays'
    rows, the right operand is whole. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored block, read at a block index, is the whole product read where the result block puts the index:
    rows 5000·t … 5000·t + 4999 of a product depend on those rows of the left operand only. -/
theorem block_product0 (c : Dev nD) (t : Fin cfg0.N) (j : S5000x64.Idx) :
    k0_pay1 (iblk0 V c 0 t) (iblk0 V c 1 t) j
      = product0 (V c main_arg0) (V c main_arg2) (((cfg0.win 2).blk t).view.emb j) := by
  obtain ⟨e00, e01, e10, e11, e20, e21⟩ := index_facts0 t
  unfold k0_pay1
  refine Cert.Lib.plain_product_row_block (m := 5000) (M := 100000) (k := 256) (n := 64) (φ₁ := .bf16) (φ₂ := .bf16) none
    (truncf .bf16 (iblk0 V c 0 t) bitsLt_bf16_f32) (truncf .bf16 (iblk0 V c 1 t) bitsLt_bf16_f32)
    (V c main_arg0) (V c main_arg2)
    (((cfg0.win 0).blk t).view.emb) (((cfg0.win 1).blk t).view.emb) (((cfg0.win 2).blk t).view.emb) (5000 * t.val)
    (fun y => rfl) (fun y => rfl) ?_ ?_ ?_ ?_ ?_ ?_ j
  · intro y; show win0_0.index t (0 : Fin 2) * 5000 + 1 * (y 0).val = _; rw [e00]; omega
  · intro y; show win0_0.index t (1 : Fin 2) * 256 + 1 * (y 1).val = _; rw [e01]; omega
  · intro y; show win0_1.index t (0 : Fin 2) * 256 + 1 * (y 0).val = _; rw [e10]; omega
  · intro y; show win0_1.index t (1 : Fin 2) * 64 + 1 * (y 1).val = _; rw [e11]; omega
  · intro y; show win0_2.index t (0 : Fin 2) * 5000 + 1 * (y 0).val = _; rw [e20]; omega
  · intro y; show win0_2.index t (1 : Fin 2) * 64 + 1 * (y 1).val = _; rw [e21]; omega

/-- What point t writes back is block t of the whole product. -/
theorem flushed0 (c : Dev nD) (t : Fin cfg0.N) :
    (dat0 V c).flushed 2 t = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  funext j
  exact block_product0 V c t j

/-- An index of the result array is in point t's block iff its row is among the block's. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Row r of the result array is written by point r / 5000. -/
theorem covered0 (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : grid0.N = 20 := N_0
  refine ⟨⟨(i 0).val / 5000, by show (i 0).val / 5000 < grid0.N; rw [hN]; omega⟩, flush0_2 _, ?_⟩
  rw [mem_block0]
  obtain ⟨-, -, -, -, e20, e21⟩ := index_facts0 ⟨(i 0).val / 5000, by show (i 0).val / 5000 < grid0.N; rw [hN]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e21]; omega

/-- The launch's result array ends holding the whole product of the arrays it found. -/
theorem result0 (c : Dev nD) :
    (dat0 V c).arrAt 2 cfg0.N = product0 (V c main_arg0) (V c main_arg2) :=
  (dat0 V c).arrAt_eq_of_cover 2 (product0 (V c main_arg0) (V c main_arg2)) (fun t _ => flushed0 V c t) covered0

/-! ## Launch 1: rows of main_v52 times main_arg4, five thousand rows per grid point -/

/-- The whole product the launch leaves in its result array. -/
abbrev product1 (X : FVec Ideal S100000x64 .f32) (W : FVec Ideal S64x64 .f32) : FVec Ideal S100000x64 .f32 :=
  Host.dotGeneral (F := Ideal) (DotDims.plain 100000 64 64) none X W

/-- The printed index maps over the grid: at point t the left block and the result block are block t of their arrays'
    rows, the right operand is whole. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored block, read at a block index, is the whole product read where the result block puts the index:
    rows 5000·t … 5000·t + 4999 of a product depend on those rows of the left operand only. -/
theorem block_product1 (c : Dev nD) (t : Fin cfg1.N) (j : S5000x64.Idx) :
    k1_pay1 (iblk1 V c 0 t) (iblk1 V c 1 t) j
      = product1 (V c main_v52) (V c main_arg4) (((cfg1.win 2).blk t).view.emb j) := by
  obtain ⟨e00, e01, e10, e11, e20, e21⟩ := index_facts1 t
  unfold k1_pay1
  rw [shapeCast_self]
  refine Cert.Lib.plain_product_row_block (m := 5000) (M := 100000) (k := 64) (n := 64) (φ₁ := .bf16) (φ₂ := .bf16) none
    (truncf .bf16 (iblk1 V c 0 t) bitsLt_bf16_f32) (truncf .bf16 (iblk1 V c 1 t) bitsLt_bf16_f32)
    (V c main_v52) (V c main_arg4)
    (((cfg1.win 0).blk t).view.emb) (((cfg1.win 1).blk t).view.emb) (((cfg1.win 2).blk t).view.emb) (5000 * t.val)
    (fun y => rfl) (fun y => rfl) ?_ ?_ ?_ ?_ ?_ ?_ j
  · intro y; show win1_0.index t (0 : Fin 2) * 5000 + 1 * (y 0).val = _; rw [e00]; omega
  · intro y; show win1_0.index t (1 : Fin 2) * 64 + 1 * (y 1).val = _; rw [e01]; omega
  · intro y; show win1_1.index t (0 : Fin 2) * 64 + 1 * (y 0).val = _; rw [e10]; omega
  · intro y; show win1_1.index t (1 : Fin 2) * 64 + 1 * (y 1).val = _; rw [e11]; omega
  · intro y; show win1_2.index t (0 : Fin 2) * 5000 + 1 * (y 0).val = _; rw [e20]; omega
  · intro y; show win1_2.index t (1 : Fin 2) * 64 + 1 * (y 1).val = _; rw [e21]; omega

/-- What point t writes back is block t of the whole product. -/
theorem flushed1 (c : Dev nD) (t : Fin cfg1.N) :
    (dat1 V c).flushed 2 t = ((cfg1.win 2).blk t).view.read (Elt Ideal) (product1 (V c main_v52) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  funext j
  exact block_product1 V c t j

/-- An index of the result array is in point t's block iff its row is among the block's. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- Row r of the result array is written by point r / 5000. -/
theorem covered1 (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hN : grid1.N = 20 := N_1
  refine ⟨⟨(i 0).val / 5000, by show (i 0).val / 5000 < grid1.N; rw [hN]; omega⟩, flush1_2 _, ?_⟩
  rw [mem_block1]
  obtain ⟨-, -, -, -, e20, e21⟩ := index_facts1 ⟨(i 0).val / 5000, by show (i 0).val / 5000 < grid1.N; rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e21]; omega

/-- The launch's result array ends holding the whole product of the arrays it found. -/
theorem result1 (c : Dev nD) :
    (dat1 V c).arrAt 2 cfg1.N = product1 (V c main_v52) (V c main_arg4) :=
  (dat1 V c).arrAt_eq_of_cover 2 (product1 (V c main_v52) (V c main_arg4)) (fun t _ => flushed1 V c t) covered1

/-! ## Launch 2: rows of main_v70 times main_arg6, five thousand rows per grid point -/

/-- The whole product the launch leaves in its result array. -/
abbrev product2 (X : FVec Ideal S100000x64 .f32) (W : FVec Ideal S64x64 .f32) : FVec Ideal S100000x64 .f32 :=
  Host.dotGeneral (F := Ideal) (DotDims.plain 100000 64 64) none X W

/-- The printed index maps over the grid: at point t the left block and the result block are block t of their arrays'
    rows, the right operand is whole. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored block, read at a block index, is the whole product read where the result block puts the index:
    rows 5000·t … 5000·t + 4999 of a product depend on those rows of the left operand only. -/
theorem block_product2 (c : Dev nD) (t : Fin cfg2.N) (j : S5000x64.Idx) :
    k2_pay1 (iblk2 V c 0 t) (iblk2 V c 1 t) j
      = product2 (V c main_v70) (V c main_arg6) (((cfg2.win 2).blk t).view.emb j) := by
  obtain ⟨e00, e01, e10, e11, e20, e21⟩ := index_facts2 t
  unfold k2_pay1
  rw [shapeCast_self]
  refine Cert.Lib.plain_product_row_block (m := 5000) (M := 100000) (k := 64) (n := 64) (φ₁ := .bf16) (φ₂ := .bf16) none
    (truncf .bf16 (iblk2 V c 0 t) bitsLt_bf16_f32) (truncf .bf16 (iblk2 V c 1 t) bitsLt_bf16_f32)
    (V c main_v70) (V c main_arg6)
    (((cfg2.win 0).blk t).view.emb) (((cfg2.win 1).blk t).view.emb) (((cfg2.win 2).blk t).view.emb) (5000 * t.val)
    (fun y => rfl) (fun y => rfl) ?_ ?_ ?_ ?_ ?_ ?_ j
  · intro y; show win2_0.index t (0 : Fin 2) * 5000 + 1 * (y 0).val = _; rw [e00]; omega
  · intro y; show win2_0.index t (1 : Fin 2) * 64 + 1 * (y 1).val = _; rw [e01]; omega
  · intro y; show win2_1.index t (0 : Fin 2) * 64 + 1 * (y 0).val = _; rw [e10]; omega
  · intro y; show win2_1.index t (1 : Fin 2) * 64 + 1 * (y 1).val = _; rw [e11]; omega
  · intro y; show win2_2.index t (0 : Fin 2) * 5000 + 1 * (y 0).val = _; rw [e20]; omega
  · intro y; show win2_2.index t (1 : Fin 2) * 64 + 1 * (y 1).val = _; rw [e21]; omega

/-- What point t writes back is block t of the whole product. -/
theorem flushed2 (c : Dev nD) (t : Fin cfg2.N) :
    (dat2 V c).flushed 2 t = ((cfg2.win 2).blk t).view.read (Elt Ideal) (product2 (V c main_v70) (V c main_arg6)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  funext j
  exact block_product2 V c t j

/-- An index of the result array is in point t's block iff its row is among the block's. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v71).slice (win2_2.rect t)).set ↔ _
  rw [View.set_slice_whole, Rect.mem_set_unit]
  exact Iff.rfl

/-- Row r of the result array is written by point r / 5000. -/
theorem covered2 (i : S100000x64.Idx) :
    ∃ t : Fin cfg2.N, (cfg2.win 2).flush t = true ∧ i ∈ ((cfg2.win 2).blk t).view.set := by
  have h0 : (i 0).val < 100000 := (i 0).isLt
  have h1 : (i 1).val < 64 := (i 1).isLt
  have hN : grid2.N = 20 := N_2
  refine ⟨⟨(i 0).val / 5000, by show (i 0).val / 5000 < grid2.N; rw [hN]; omega⟩, flush2_2 _, ?_⟩
  rw [mem_block2]
  obtain ⟨-, -, -, -, e20, e21⟩ := index_facts2 ⟨(i 0).val / 5000, by show (i 0).val / 5000 < grid2.N; rw [hN]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e21]; omega

/-- The launch's result array ends holding the whole product of the arrays it found. -/
theorem result2 (c : Dev nD) :
    (dat2 V c).arrAt 2 cfg2.N = product2 (V c main_v70) (V c main_arg6) :=
  (dat2 V c).arrAt_eq_of_cover 2 (product2 (V c main_v70) (V c main_arg6)) (fun t _ => flushed2 V c t) covered2

end Cert.KernelIdeal.Products

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibKernelHostForms.lean ====
/-
  Three kernel-side operations and the host operations they are, as whole arrays over the extended reals.

  A kernel's matrix product of operands rounded to bf16, accumulated into zero, is the host's dot_general of the
  unrounded operands, for any dimension numbers: rounding is the identity on the extended reals and both products are
  the sum over the contracted coordinates. A [1, b] row broadcast over [a, b] by the kernel's vector broadcast is the
  host's broadcast_in_dim along dimensions [0, 1]. A scalar constant splat over an array by the kernel is the host's
  broadcast of the constant scalar.
-/
import proofs.«145869_j44152263803038_1_alg».proof.Proof.LibHostSpread
import Idealize.ShloMosaic.Lib.Pipeline.Value
import Idealize.ShloMosaic.Lib.ValueIdx
import Idealize.ShloMosaic.Lib.ValueLayout
import Idealize.ShloMosaic.PureOps.Ideal.Laws

noncomputable section

namespace Cert.Lib

open Idealize.ShloMosaic Idealize.ShloMosaic.ValueIdx

/-- A product into the zero accumulator of operands rounded to bf16 is the host's product of the operands: rounding is
    the identity on the extended reals, and both products are the sum over the contracted coordinate. -/
theorem rounded_product {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant so .f32 0x00000000#32) = Host.dotGeneral d prec a b := by
  funext j
  exact (Ideal.matmul_constant_zero_apply d prec (truncf .bf16 a h1) (truncf .bf16 b h2) j).trans
    (Ideal.dotGeneral_apply d prec default a b j).symm

/-- One row spread over many rows, by the kernel's broadcast and by the host's, is the same array. -/
theorem row_spread {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply, spread_1b_ab_apply]

/-- A scalar constant spread over an array, by the kernel's splat and by the host's, is the same array. -/
theorem zero_splat {t : Shape} (w : BitVec 32) (h : (⟨0, ![]⟩ : Shape).BroadcastsInDim t (![] : Fin 0 → Fin t.rank)) :
    (broadcast t (Scalar.ofBits (F := Ideal) .f32 w) : FVec Ideal t .f32) = broadcastInDim t ![] h (constant ⟨0, ![]⟩ .f32 w) := by
  funext j
  rw [splat_apply]
  rfl

end Cert.Lib

end
-- ==== Proof.HeadRegion.lean ====
/-
  The classifier head of the idealized kernel program.

  The last launch has one grid point and every window's block is its whole array. Its body computes, on the extended
  reals, relu(D · Wp + bp) · Wc + bc: two products into zero accumulators of operands rounded to bf16 (the identity),
  each followed by a bias row spread over the rows, a maximum with zero in between. The host spells the same function
  with dot_general, broadcast_in_dim and maximum; the two spellings are one function of the five arrays, entry by
  entry. The bias rows reach the launch as reshapes of the bias vectors, where the host broadcasts them along
  dimension 1 of a one-row matrix: the same row.
-/
import proofs.«145869_j44152263803038_1_alg».proof.Proof.Gen.KernelIdeal.Frame
import proofs.«145869_j44152263803038_1_alg».proof.Proof.Gen.ReferenceIdeal.Read
import proofs.«145869_j44152263803038_1_alg».proof.Proof.LibRowOfVector
import proofs.«145869_j44152263803038_1_alg».proof.Proof.LibHostSpread
import proofs.«145869_j44152263803038_1_alg».proof.Proof.LibKernelHostForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat)

/-! ## The body's operations against the host's, as whole arrays -/

/-- The head's body on whole arrays is the host's relu(D · Wp + bp) · Wc + bc, the bias rows being the bias vectors
    recast as one-row matrices. -/
theorem body_eq (d : FVec Ideal S10000x64 .f32) (x8 : FVec Ideal S64x64 .f32) (x9 : FVec Ideal S64 .f32)
    (x10 : FVec Ideal S64x20 .f32) (x11 : FVec Ideal S20 .f32) :
    k3_pay1 (F := Ideal) d x8 (shapeCast S1x64 x9 shapeCasts_S64_S1x64) x10 (shapeCast S1x20 x11 shapeCasts_S20_S1x20)
      = addf (Host.dotGeneral Cert.ReferenceIdeal.dot_S10000x64_S64x20_S10000x20_1_0_0_1_n_n none
          (maximumf (addf (Host.dotGeneral Cert.ReferenceIdeal.dot_S10000x64_S64x64_S10000x64_1_0_0_1_n_n none d x8)
            (Cert.ReferenceIdeal.Read.val_main_v98 (F := Ideal) x9)) (Cert.ReferenceIdeal.Read.val_main_call5_v0 (F := Ideal))) x10)
        (Cert.ReferenceIdeal.Read.val_main_v103 (F := Ideal) x11) := by
  unfold k3_pay1
  simp only [shapeCast_self]
  rw [Cert.Lib.rounded_product, Cert.Lib.rounded_product,
    Cert.Lib.row_spread (a := 10000) _ _ Cert.ReferenceIdeal.Gen.bcast_S1x64_S10000x64_0_1,
    Cert.Lib.row_spread (a := 10000) _ _ Cert.ReferenceIdeal.Gen.bcast_S1x20_S10000x20_0_1,
    Cert.Lib.shapeCast_row_eq_broadcastInDim x9 _ Cert.ReferenceIdeal.Gen.bcast_S64_S1x64_1,
    Cert.Lib.shapeCast_row_eq_broadcastInDim x11 _ Cert.ReferenceIdeal.Gen.bcast_S20_S1x20_1,
    Cert.Lib.zero_splat _ Cert.ReferenceIdeal.Gen.bcast_S_S10000x64]
  rfl

/-! ## The launch: one point, every block its whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index is zero on both axes. -/
theorem index_facts3 : ∀ t : Fin cfg3.N, (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

/-! Each input window's block is its whole array as the launch finds it. -/

theorem whole0 (c : Dev nD) (t : Fin cfg3.N) : iblk3 V c 0 t = V c main_v95 := by
  obtain ⟨e0, e1⟩ := (index_facts3 t).1
  funext y
  show V c main_v95 (((cfg3.win 0).blk t).view.emb y) = V c main_v95 y
  refine congrArg (V c main_v95) (funext fun a => Fin.ext ?_)
  match a with
  | ⟨0, _⟩ => show win3_0.index t (0 : Fin 2) * 10000 + 1 * (y 0).val = (y 0).val; rw [e0]; omega
  | ⟨1, _⟩ => show win3_0.index t (1 : Fin 2) * 64 + 1 * (y 1).val = (y 1).val; rw [e1]; omega

theorem whole1 (c : Dev nD) (t : Fin cfg3.N) : iblk3 V c 1 t = V c main_arg8 := by
  obtain ⟨e0, e1⟩ := (index_facts3 t).2.1
  funext y
  show V c main_arg8 (((cfg3.win 1).blk t).view.emb y) = V c main_arg8 y
  refine congrArg (V c main_arg8) (funext fun a => Fin.ext ?_)
  match a with
  | ⟨0, _⟩ => show win3_1.index t (0 : Fin 2) * 64 + 1 * (y 0).val = (y 0).val; rw [e0]; omega
  | ⟨1, _⟩ => show win3_1.index t (1 : Fin 2) * 64 + 1 * (y 1).val = (y 1).val; rw [e1]; omega

theorem whole2 (c : Dev nD) (t : Fin cfg3.N) : iblk3 V c 2 t = V c main_v96 := by
  obtain ⟨e0, e1⟩ := (index_facts3 t).2.2.1
  funext y
  show V c main_v96 (((cfg3.win 2).blk t).view.emb y) = V c main_v96 y
  refine congrArg (V c main_v96) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

theorem whole3 (c : Dev nD) (t : Fin cfg3.N) : iblk3 V c 3 t = V c main_arg10 := by
  obtain ⟨e0, e1⟩ := (index_facts3 t).2.2.2.1
  funext y
  show V c main_arg10 (((cfg3.win 3).blk t).view.emb y) = V c main_arg10 y
  refine congrArg (V c main_arg10) (funext fun a => Fin.ext ?_)
  match a with
  | ⟨0, _⟩ => show win3_3.index t (0 : Fin 2) * 64 + 1 * (y 0).val = (y 0).val; rw [e0]; omega
  | ⟨1, _⟩ => show win3_3.index t (1 : Fin 2) * 20 + 1 * (y 1).val = (y 1).val; rw [e1]; omega

theorem whole4 (c : Dev nD) (t : Fin cfg3.N) : iblk3 V c 4 t = V c main_v97 := by
  obtain ⟨e0, e1⟩ := (index_facts3 t).2.2.2.2.1
  funext y
  show V c main_v97 (((cfg3.win 4).blk t).view.emb y) = V c main_v97 y
  refine congrArg (V c main_v97) (funext fun a => Fin.ext ?_)
  match a with
  | ⟨0, _⟩ => show win3_4.index t (0 : Fin 2) * 1 + 1 * (y 0).val = (y 0).val; rw [e0]; omega
  | ⟨1, _⟩ => show win3_4.index t (1 : Fin 2) * 20 + 1 * (y 1).val = (y 1).val; rw [e1]; omega

/-- What the launch leaves in its result array: the body's function of the five arrays it found. -/
abbrev logits (c : Dev nD) : S10000x20.Idx → Elt Ideal .f32 :=
  k3_pay1 (F := Ideal) (V c main_v95) (V c main_arg8) (V c main_v96) (V c main_arg10) (V c main_v97)

/-- What the one point writes back is the whole result. -/
theorem flushed3 (c : Dev nD) (t : Fin cfg3.N) :
    (dat3 V c).flushed 5 t = ((cfg3.win 5).blk t).view.read (Elt Ideal) (logits V c) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x64) hz, View.ld_unit_zero (S := S1x64) hz,
    View.ld_unit_zero (S := S64x20) hz, View.ld_unit_zero (S := S1x20) hz]
  rw [whole0 V c t, whole1 V c t, whole2 V c t, whole3 V c t, whole4 V c t]
  obtain ⟨e0, e1⟩ := (index_facts3 t).2.2.2.2.2
  funext j
  show logits V c j = logits V c (((cfg3.win 5).blk t).view.emb j)
  refine congrArg (logits V c) (funext fun a => Fin.ext ?_)
  match a with
  | ⟨0, _⟩ => show (j 0).val = win3_5.index t (0 : Fin 2) * 10000 + 1 * (j 0).val; rw [e0]; omega
  | ⟨1, _⟩ => show (j 1).val = win3_5.index t (1 : Fin 2) * 20 + 1 * (j 1).val; rw [e1]; omega

/-- An index of the result array is in point t's block iff each coordinate is in the block's range. -/
theorem mem_block3 (t : Fin cfg3.N) (i : S10000x20.Idx) :
    i ∈ ((cfg3.win 5).blk t).view.set ↔ ∀ a : Fin 2, win3_5.index t a * S10000x20.size a ≤ (i a).val ∧ (i a).val < win3_5.index t a * S10000x20.size a + S10000x20.size a := by
  show i ∈ ((View.whole main_v98).slice (win3_5.rect t)).set ↔ _
  rw [View.set_slice_whole, Rect.mem_set_unit]
  exact Iff.rfl

/-- The one block covers the result array. -/
theorem covered3 (i : S10000x20.Idx) :
    ∃ t : Fin cfg3.N, (cfg3.win 5).flush t = true ∧ i ∈ ((cfg3.win 5).blk t).view.set := by
  have h0 : (i 0).val < 10000 := (i 0).isLt
  have h1 : (i 1).val < 20 := (i 1).isLt
  refine ⟨t3_0, flush3_5 t3_0, ?_⟩
  rw [mem_block3]
  obtain ⟨e0, e1⟩ := (index_facts3 t3_0).2.2.2.2.2
  intro a
  match a with
  | ⟨0, _⟩ =>
    show win3_5.index t3_0 (0 : Fin 2) * 10000 ≤ (i 0).val ∧ (i 0).val < win3_5.index t3_0 (0 : Fin 2) * 10000 + 10000
    rw [e0]; omega
  | ⟨1, _⟩ =>
    show win3_5.index t3_0 (1 : Fin 2) * 20 ≤ (i 1).val ∧ (i 1).val < win3_5.index t3_0 (1 : Fin 2) * 20 + 20
    rw [e1]; omega

/-- The launch's result array ends holding the body's function of the arrays it found. -/
theorem result3 (c : Dev nD) : (dat3 V c).arrAt 5 cfg3.N = logits V c :=
  (dat3 V c).arrAt_eq_of_cover 5 (logits V c) (fun t _ => flushed3 V c t) covered3

end Cert.KernelIdeal.Head

end
-- ==== Proof.KernelValue.lean ====
/-
  The idealized kernel program's result array as the reference's last stage.

  The buffer contents at the segment boundaries are followed from the launch memory to the return. Before the first
  launch the host computes the index columns and the normalised edge weights; they and the weight, bias and
  document-index arguments are then carried unchanged past every later segment until read. Each of the first three
  launches leaves the whole product of the activations it found with its weight matrix, which is the reference's
  dot_general; each host stretch after it is the reference's aggregation, bias and rectifier; the last launch is the
  reference's classifier head on the gathered document rows. So the result array ends at the reference's last stage of
  the fourteen arguments.
-/
import proofs.«145869_j44152263803038_1_alg».proof.Proof.Gen.KernelIdeal.Frame
import proofs.«145869_j44152263803038_1_alg».proof.Proof.KernelRun
import proofs.«145869_j44152263803038_1_alg».proof.Proof.HostStages
import proofs.«145869_j44152263803038_1_alg».proof.Proof.MatmulRegions
import proofs.«145869_j44152263803038_1_alg».proof.Proof.HeadRegion

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Before the first launch -/

theorem rows5 : W5 m ρ c (Proc.devRef .tc main_v5) = Cert.ReferenceIdeal.Read.val_main_v5 (F := Ideal) (m ((c : Thread nD τ).loc main_arg12)) :=
  Stages.rows_eq (W0 m ρ c)

theorem cols5 : W5 m ρ c (Proc.devRef .tc main_v6) = Cert.ReferenceIdeal.Read.val_main_v6 (F := Ideal) (m ((c : Thread nD τ).loc main_arg12)) :=
  Stages.cols_eq (W0 m ρ c)

theorem norm5 : W5 m ρ c (Proc.devRef .tc main_v34) = Cert.ReferenceIdeal.Read.val_main_v34 (F := Ideal) (m ((c : Thread nD τ).loc main_arg1)) (m ((c : Thread nD τ).loc main_arg12)) :=
  Stages.norm_eq (W0 m ρ c)

/-- The arguments read later are as launched when the first launch is entered. -/
theorem args5 : ∀ r ∈ ([main_arg0, main_arg2, main_arg3, main_arg4, main_arg5, main_arg6, main_arg7, main_arg8, main_arg9, main_arg10, main_arg11, main_arg13] : List (Ref sig .tc)),
    W5 m ρ c (Proc.devRef .tc r) = m ((c : Thread nD τ).loc r) :=
  Stages.before_first_keeps (W0 m ρ c)

/-! ## The first product and the first layer -/

theorem product6 : W6 m ρ c (Proc.devRef .tc main_v35) = Cert.ReferenceIdeal.Read.val_main_v35 (F := Ideal) (m ((c : Thread nD τ).loc main_arg0)) (m ((c : Thread nD τ).loc main_arg2)) := by
  refine (W6_arr m ρ c 2).trans ((Products.result0 (V5 m ρ) c).trans ?_)
  show Products.product0 (W5 m ρ c (Proc.devRef .tc main_arg0)) (W5 m ρ c (Proc.devRef .tc main_arg2)) = _
  rw [args5 m ρ c main_arg0 (by decide), args5 m ρ c main_arg2 (by decide)]
  rfl

/-- The first launch writes only its result array. -/
theorem past_first_launch : ∀ r ∈ ([main_v5, main_v6, main_v34, main_arg3, main_arg4, main_arg5, main_arg6, main_arg7, main_arg8, main_arg9, main_arg10, main_arg11, main_arg13] : List (Ref sig .tc)),
    W6 m ρ c (Proc.devRef .tc r) = W5 m ρ c (Proc.devRef .tc r) := by
  intro r hr
  simp only [List.mem_cons, List.not_mem_nil, or_false] at hr
  rcases hr with rfl | rfl | rfl | rfl | rfl | rfl | rfl | rfl | rfl | rfl | rfl | rfl | rfl <;> exact W6_of_ne m ρ c _ (by decide)

/-- What is carried is unchanged when the second launch is entered. -/
theorem carried8 : ∀ r ∈ ([main_v5, main_v6, main_v34, main_arg3, main_arg4, main_arg5, main_arg6, main_arg7, main_arg8, main_arg9, main_arg10, main_arg11, main_arg13] : List (Ref sig .tc)),
    W8 m ρ c (Proc.devRef .tc r) = W5 m ρ c (Proc.devRef .tc r) :=
  fun r hr => (Stages.after_first_keeps (W6 m ρ c) r hr).trans (past_first_launch m ρ c r hr)

theorem layer8 : W8 m ρ c (Proc.devRef .tc main_v52) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg12)) :=
  Stages.layer1_eq (W6 m ρ c) _ _ _ _ _ (product6 m ρ c)
    ((past_first_launch m ρ c main_v5 (by decide)).trans (rows5 m ρ c))
    ((past_first_launch m ρ c main_v6 (by decide)).trans (cols5 m ρ c))
    ((past_first_launch m ρ c main_v34 (by decide)).trans (norm5 m ρ c))
    ((past_first_launch m ρ c main_arg3 (by decide)).trans (args5 m ρ c main_arg3 (by decide)))

/-! ## The second product and the second layer -/

theorem product9 : W9 m ρ c (Proc.devRef .tc main_v53) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) := by
  refine (W9_arr m ρ c 2).trans ((Products.result1 (V8 m ρ) c).trans ?_)
  show Products.product1 (W8 m ρ c (Proc.devRef .tc main_v52)) (W8 m ρ c (Proc.devRef .tc main_arg4)) = _
  rw [layer8 m ρ c, carried8 m ρ c main_arg4 (by decide), args5 m ρ c main_arg4 (by decide)]
  rfl

/-- The second launch writes only its result array. -/
theorem past_second_launch : ∀ r ∈ ([main_v5, main_v6, main_v34, main_arg5, main_arg6, main_arg7, main_arg8, main_arg9, main_arg10, main_arg11, main_arg13] : List (Ref sig .tc)),
    W9 m ρ c (Proc.devRef .tc r) = W8 m ρ c (Proc.devRef .tc r) := by
  intro r hr
  simp only [List.mem_cons, List.not_mem_nil, or_false] at hr
  rcases hr with rfl | rfl | rfl | rfl | rfl | rfl | rfl | rfl | rfl | rfl | rfl <;> exact W9_of_ne m ρ c _ (by decide)

/-- What is carried is unchanged when the third launch is entered. -/
theorem carried11 : ∀ r ∈ ([main_v5, main_v6, main_v34, main_arg5, main_arg6, main_arg7, main_arg8, main_arg9, main_arg10, main_arg11, main_arg13] : List (Ref sig .tc)),
    W11 m ρ c (Proc.devRef .tc r) = W5 m ρ c (Proc.devRef .tc r) := by
  intro r hr
  refine (Stages.after_second_keeps (W9 m ρ c) r hr).trans ((past_second_launch m ρ c r hr).trans ?_)
  simp only [List.mem_cons, List.not_mem_nil, or_false] at hr
  rcases hr with rfl | rfl | rfl | rfl | rfl | rfl | rfl | rfl | rfl | rfl | rfl <;> exact carried8 m ρ c _ (by decide)

/-- The same one launch earlier, at the second launch's exit. -/
theorem carried9 : ∀ r ∈ ([main_v5, main_v6, main_v34, main_arg5, main_arg6, main_arg7, main_arg8, main_arg9, main_arg10, main_arg11, main_arg13] : List (Ref sig .tc)),
    W9 m ρ c (Proc.devRef .tc r) = W5 m ρ c (Proc.devRef .tc r) := by
  intro r hr
  refine (past_second_launch m ρ c r hr).trans ?_
  simp only [List.mem_cons, List.not_mem_nil, or_false] at hr
  rcases hr with rfl | rfl | rfl | rfl | rfl | rfl | rfl | rfl | rfl | rfl | rfl <;> exact carried8 m ρ c _ (by decide)

theorem layer11 : W11 m ρ c (Proc.devRef .tc main_v70) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) :=
  Stages.layer2_eq (W9 m ρ c) _ _ _ _ _ _ _ (product9 m ρ c)
    ((carried9 m ρ c main_v5 (by decide)).trans (rows5 m ρ c))
    ((carried9 m ρ c main_v6 (by decide)).trans (cols5 m ρ c))
    ((carried9 m ρ c main_v34 (by decide)).trans (norm5 m ρ c))
    ((carried9 m ρ c main_arg5 (by decide)).trans (args5 m ρ c main_arg5 (by decide)))

/-! ## The third product, the third layer and the document rows -/

theorem product12 : W12 m ρ c (Proc.devRef .tc main_v71) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg12)) := by
  refine (W12_arr m ρ c 2).trans ((Products.result2 (V11 m ρ) c).trans ?_)
  show Products.product2 (W11 m ρ c (Proc.devRef .tc main_v70)) (W11 m ρ c (Proc.devRef .tc main_arg6)) = _
  rw [layer11 m ρ c, carried11 m ρ c main_arg6 (by decide), args5 m ρ c main_arg6 (by decide)]
  rfl

/-- The third launch writes only its result array. -/
theorem past_third_launch : ∀ r ∈ ([main_v5, main_v6, main_v34, main_arg7, main_arg8, main_arg9, main_arg10, main_arg11, main_arg13] : List (Ref sig .tc)),
    W12 m ρ c (Proc.devRef .tc r) = W11 m ρ c (Proc.devRef .tc r) := by
  intro r hr
  simp only [List.mem_cons, List.not_mem_nil, or_false] at hr
  rcases hr with rfl | rfl | rfl | rfl | rfl | rfl | rfl | rfl | rfl <;> exact W12_of_ne m ρ c _ (by decide)

/-- What is carried is unchanged at the third launch's exit. -/
theorem carried12 : ∀ r ∈ ([main_v5, main_v6, main_v34, main_arg7, main_arg8, main_arg9, main_arg10, main_arg11, main_arg13] : List (Ref sig .tc)),
    W12 m ρ c (Proc.devRef .tc r) = W5 m ρ c (Proc.devRef .tc r) := by
  intro r hr
  refine (past_third_launch m ρ c r hr).trans ?_
  simp only [List.mem_cons, List.not_mem_nil, or_false] at hr
  rcases hr with rfl | rfl | rfl | rfl | rfl | rfl | rfl | rfl | rfl <;> exact carried11 m ρ c _ (by decide)

theorem docs15 : W15 m ρ c (Proc.devRef .tc main_v95) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) :=
  Stages.docs_eq (W12 m ρ c) _ _ _ _ _ _ _ _ _ _ (product12 m ρ c)
    ((carried12 m ρ c main_v5 (by decide)).trans (rows5 m ρ c))
    ((carried12 m ρ c main_v6 (by decide)).trans (cols5 m ρ c))
    ((carried12 m ρ c main_v34 (by decide)).trans (norm5 m ρ c))
    ((carried12 m ρ c main_arg7 (by decide)).trans (args5 m ρ c main_arg7 (by decide)))
    ((carried12 m ρ c main_arg13 (by decide)).trans (args5 m ρ c main_arg13 (by decide)))

theorem hidden_bias15 : W15 m ρ c (Proc.devRef .tc main_v96) = shapeCast S1x64 (m ((c : Thread nD τ).loc main_arg9)) shapeCasts_S64_S1x64 := by
  rw [← args5 m ρ c main_arg9 (by decide), ← carried12 m ρ c main_arg9 (by decide)]
  exact Stages.bias_row_hidden (W12 m ρ c)

theorem class_bias15 : W15 m ρ c (Proc.devRef .tc main_v97) = shapeCast S1x20 (m ((c : Thread nD τ).loc main_arg11)) shapeCasts_S20_S1x20 := by
  rw [← args5 m ρ c main_arg11 (by decide), ← carried12 m ρ c main_arg11 (by decide)]
  exact Stages.bias_row_class (W12 m ρ c)

theorem head_weights15 : ∀ r ∈ ([main_arg8, main_arg10] : List (Ref sig .tc)),
    W15 m ρ c (Proc.devRef .tc r) = m ((c : Thread nD τ).loc r) := by
  intro r hr
  refine (Stages.after_third_keeps (W12 m ρ c) r hr).trans ?_
  simp only [List.mem_cons, List.not_mem_nil, or_false] at hr
  rcases hr with rfl | rfl
  · exact (carried12 m ρ c main_arg8 (by decide)).trans (args5 m ρ c main_arg8 (by decide))
  · exact (carried12 m ρ c main_arg10 (by decide)).trans (args5 m ρ c main_arg10 (by decide))

/-! ## The head, and the run -/

/-- The result array at the return is the reference's last stage of the arguments. -/
theorem result16 : W16 m ρ c (Proc.devRef .tc main_v98)
    = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W16_arr m ρ c 5).trans ((Head.result3 (V15 m ρ) c).trans ?_)
  show k3_pay1 (F := Ideal) (W15 m ρ c (Proc.devRef .tc main_v95)) (W15 m ρ c (Proc.devRef .tc main_arg8))
    (W15 m ρ c (Proc.devRef .tc main_v96)) (W15 m ρ c (Proc.devRef .tc main_arg10)) (W15 m ρ c (Proc.devRef .tc main_v97)) = _
  rw [docs15 m ρ c, hidden_bias15 m ρ c, class_bias15 m ρ c, head_weights15 m ρ c main_arg8 (by decide),
    head_weights15 m ρ c main_arg10 (by decide)]
  exact (Head.body_eq _ _ _ _ _).trans rfl

/-- Every weakly fair execution of the idealized kernel program terminates, nothing faulting, with the result array at
    the reference's last stage of the arguments and the arguments as launched. -/
theorem run : θ_run defs (onTc (τ := τ) (main (F := Ideal))) ⟨m, fun _ => 0, ρ⟩ (fun r => ∀ c : Dev nD,
      r.2.mem ((c.tc : Thread nD τ).loc main_v98) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result16 m ρ c), (h c).2⟩) (RunValue.run m ρ)

end Cert.KernelIdeal.Chain

end
-- ==== Proof.lean ====
/-
  The proof of `Cert.Claim`: a three-layer graph convolution with a two-layer classifier head, its dense products in
  four kernel launches, against the same network written with host products.

  Both programs run the same host operations around their products: the self-loops appended to the edge list, the
  symmetric normalisation of the edge weights, and per layer a gather of the transformed rows, their scaling, the
  scatter-add into the node table, the bias and the rectifier; then the gather of the document rows. Where the
  reference multiplies on the host, the kernel program launches a kernel that rounds both operands to bf16 and
  multiplies block by block into a zero accumulator: on the extended reals rounding is the identity and a row block of
  a product is the product of the row block, so each launch leaves the host's product, and the head launch the host's
  relu(D · Wp + bp) · Wc + bc. No law beyond the sums' definitions joins the two sides, so the precondition is never
  opened. The three frames are the generated ones (the reference's is its run with the result dropped); the ideal
  pass rewrote nothing, so `preserves` is trivial.
-/
import proofs.«145869_j44152263803038_1_alg».proof.Defs
import proofs.«145869_j44152263803038_1_alg».proof.Proof.Gen.Kernel
import proofs.«145869_j44152263803038_1_alg».proof.Proof.Gen.Kernel.Frame
import proofs.«145869_j44152263803038_1_alg».proof.Proof.Gen.KernelIdeal
import proofs.«145869_j44152263803038_1_alg».proof.Proof.Gen.KernelIdeal.Frame
import proofs.«145869_j44152263803038_1_alg».proof.Proof.Gen.ReferenceIdeal
import proofs.«145869_j44152263803038_1_alg».proof.Proof.Gen.Pre_finite_inputs
import proofs.«145869_j44152263803038_1_alg».proof.Proof.Gen.ReferenceIdeal.Run
import proofs.«145869_j44152263803038_1_alg».proof.Proof.Gen.ReferenceIdeal.Read
import proofs.«145869_j44152263803038_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's last stage of the arguments in
    their result arrays. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq]
  obtain ⟨e0, e1, e2, e3, e4, e5, e6, e7, e8, e9, e10, e11, e12, e13⟩ := hagree c
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
